-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSharedFrame.lean ====
/-
  A frame run for one pipelined region whose input windows may read ONE array through several windows.

  The library's frame runs take the windows' arrays pairwise distinct, and from that derive how the arrays'
  buffers are dealt to the windows at entry. Here that step is a hypothesis instead (`hsplit`): the caller says
  how the distinct buffers behind the arrays, each whole at its entry contents, make the proof data's arrays —
  an array read by several input windows is split among them, each window holding the share the proof data
  name for it. Everything else is the library's launch theorem for a kernel with no semaphore of its own,
  instantiated the way the library's own frame runs instantiate it: the ghost state is the pipeline's alone, the
  unscoped buffers that are no window's array pass by the region and are read back unchanged at the end, and
  the region's invariant is entered from, and gives back, the core's scoped buffers that are no staging buffer
  (the kernel's scratch), each at some contents.

  The conclusion is the library's `FramePost`: every window's array ends at what the proof data compute
  (`Dat.arrAt … N`), every other unscoped buffer at its entry contents.
-/
import Idealize.ShloMosaic.Lib.Pipeline.Frame

noncomputable section

namespace Cert.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of a region whose windows may share arrays. `hsplit` deals the arrays' buffers to the windows
    at entry; `hin` / `hout` enter the invariant from the kernel's scratch at any contents and give it back. -/
theorem θ_run_frame_shared
    (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      iexact H)
    (hin := fun c => (show _ ⊢ (scopedRest (cfgs p).spec c : sProp 𝕄) from by
      iintro ⟨-, H⟩
      iexact H).trans (hin c))
    (hout := fun c => (hout c).trans (by
      iintro H
      isplitr
      · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.SharedFrame

end
-- ==== Proof.KernelSetup.lean ====
/-
  What the two runs of the kernel body and the frame share: the arrays as the region finds them, each
  window's block at a grid point, the one condition the body branches on, and the staging memrefs by name.

  The region is entered with no host operation before it, so every array holds its launch contents. The body
  branches once, on "this is the first grid point": there it computes the product of the first two operands
  into its scratch; at every point it then multiplies two row blocks of the third operand by the scratch.
-/
import proofs.«175780_g6734508720141_cont_9to1c4b_724_7_alg».proof.Proof.Gen.Kernel.Launch
import proofs.«175780_g6734508720141_cont_9to1c4b_724_7_alg».proof.Proof.Gen.Kernel.Skeleton
import proofs.«175780_g6734508720141_cont_9to1c4b_724_7_alg».proof.Proof.Gen.Kernel.Points
import proofs.«175780_g6734508720141_cont_9to1c4b_724_7_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffer contents when the region is entered: the launch contents (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's one condition -/

/-- The body's branch condition, from the grid coordinate: "the coordinate is zero". -/
abbrev firstPoint (i : grid0.Coords) : Prop := (Scalar.cmpi .ne (Scalar.extui (Scalar.cmpi .eq (BitVec.ofNat 32 (i 0).val) 0#32)) 0#32) = 1#1

/-- It holds at point 0 and at no other of the 25 points. -/
theorem firstPoint_iff : ∀ t : Fin cfg0.N, firstPoint (grid0.coords t) ↔ t.val = 0 :=
  (by decide +kernel : ∀ t : Fin grid0.N, firstPoint (grid0.coords t) ↔ t.val = 0)

/-! ## The staging memrefs at a point, as the pipeline passes them to the body -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S10000x128 .f32 := Memref.whole cc0_scratch0
/-- One staging buffer of the output window, through which its contents are stated (the choice does not matter). -/
abbrev VO : View sig .tc .vmem S400x128 .f32 := (Memref.whole cc0_stg4_0 : Memref sig .tc .vmem S400x128 .f32).view
/-- The scratch as a view. -/
abbrev VS : View sig .tc .vmem S10000x128 .f32 := (scM : Memref sig .tc .vmem S10000x128 .f32).view

/-- The kernel's scratch is the one scoped buffer that is no staging buffer: the scoped rest is the scratch
    owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.KernelRunFirst.lean ====
/-
  The kernel body at the FIRST grid point, run once on any whole staging memrefs: the four inputs at given
  contents, the output's buffer and the scratch at anything. The branch is taken: the scratch is stored whole
  with the product of the first two inputs, then each half of the output block is stored with the product
  of one row block by the scratch. The pieces the stores leave in the output's buffer and in the scratch are
  found by the run itself.
-/
import proofs.«175780_g6734508720141_cont_9to1c4b_724_7_alg».proof.Proof.KernelSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at the first point (output block; scratch), with the proof that the body
    runs to any continuation that holds the inputs as they were and the two written buffers with those pieces. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : firstPoint i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg1 harg1 arg2 harg2 arg3 harg3 arg4 harg4 arg5 harg5 arg6 harg6) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1
    obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

end Cert.Kernel.Hand

end
-- ==== Proof.KernelRunLater.lean ====
/-
  The kernel body at any LATER grid point, run once on any whole staging memrefs: the two row blocks and the
  scratch at given contents, the output's buffer at anything. The branch is not taken: the scratch is only
  read, and each half of the output block is stored with the product of one row block by the scratch. The
  first two inputs' buffers are not touched at all.
-/
import proofs.«175780_g6734508720141_cont_9to1c4b_724_7_alg».proof.Proof.KernelSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block at a later point, with the proof that the body runs
    to any continuation that holds the row blocks and the scratch as they were and the output's buffer with
    those pieces. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬firstPoint i)
    (x2 : Vec F S200x10000 .f32) (x3 : Vec F S200x10000 .f32) (xs : Vec F S10000x128 .f32) :
    { L4 : List (View.Piece (Elt F) S400x128 .f32) //
      ∀ (E : Set ℕ) (K : PUnit → sProp 𝕄),
        iprop(owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f2, %hf2, H2⟩, ⟨%f3, %hf3, H3⟩, ⟨%d4, %f4, -, H4⟩, ⟨%f5, %hf5, H5⟩, Hk⟩
    obtain rfl := harg3.eq_unread hf2; obtain rfl := harg4.eq_unread hf3
    obtain rfl := harg6.eq_unread hf5
    sl_exec (disch := exact hc)
    sl_step
    iapply Hk
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H5

end Cert.Kernel.Hand

end
-- ==== Proof.KernelFrame.lean ====
/-
  The frame run of the kernel's one region, and what its output array holds afterwards.

  The region has five windows on a grid of 25 points: the first two operands whole (fetched once), the third
  operand TWICE — its even and its odd blocks of 200 rows, two windows on one array —, and the result in blocks
  of 400 rows, written back at every point. The body keeps the product of the first two operands in a scratch
  buffer from the first point on. So the proof data are: every input window leaves its block as it found it;
  the output window leaves what the point's run stored; the invariant between points is the scratch, at anything
  before the first point and at the first point's product after it; the third operand's buffer is held half
  by each of the two windows that read it.
-/
import proofs.«175780_g6734508720141_cont_9to1c4b_724_7_alg».proof.Proof.KernelRunFirst
import proofs.«175780_g6734508720141_cont_9to1c4b_724_7_alg».proof.Proof.KernelRunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs' pieces cover -/

/-- At the first point the two stores of 200 rows tile the output block. -/
theorem coverFirstOut (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : firstPoint i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x128.size (by sl_kernel_rfl) y

/-- At the first point the one whole store covers the scratch. -/
theorem coverFirstScratch (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : firstPoint i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y

/-- At a later point the two stores of 200 rows tile the output block. -/
theorem coverLaterOut (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬firstPoint i)
    (x2 : Vec F S200x10000 .f32) (x3 : Vec F S200x10000 .f32) (xs : Vec F S10000x128 .f32) (y : S400x128.Idx) :
    ∃ pc ∈ (runLater c i arg1 harg1 arg2 harg2 arg3 harg3 arg4 harg4 arg5 harg5 arg6 harg6 hc x2 x3 xs).1, y ∈ pc.1.set :=
  View.cover_of_tiledL (runLater c i arg1 harg1 arg2 harg2 arg3 harg3 arg4 harg4 arg5 harg5 arg6 harg6 hc x2 x3 xs).1 S200x128.size (by sl_kernel_rfl) y

/-! ## What the scratch and the output block hold, point by point -/

/-- The first grid point. -/
abbrev t0 : Fin cfg0.N := ⟨0, by rw [show cfg0.N = 25 from N_0]; omega⟩

theorem first_t0 : firstPoint (grid0.coords t0) := (firstPoint_iff t0).mpr rfl

/-- What the first point leaves in the scratch (and every later point finds there): its pieces read back. -/
def support (c : Dev nD) : Vec F S10000x128 .f32 :=
  VS.read (Elt F) (VS.writes (Elt F) VS.junk (runFirst c (grid0.coords t0) (ms0 t0) (hs0 t0) (ms1 t0) (hs1 t0) (ms2 t0) (hs2 t0) (ms3 t0) (hs3 t0) (ms4 t0) (hs4 t0) scM (Memref.isWhole_whole _) first_t0 (iblk m c 0 t0) (iblk m c 1 t0) (iblk m c 2 t0) (iblk m c 3 t0)).2.1)

/-- What the body leaves in the output's staging buffer at point `t`: the pieces of that point's run, read back. -/
def outAt (c : Dev nD) (t : Fin cfg0.N) : Vec F S400x128 .f32 :=
  if h : t.val = 0 then
    VO.read (Elt F) (VO.writes (Elt F) VO.junk (runFirst c (grid0.coords t) (ms0 t) (hs0 t) (ms1 t) (hs1 t) (ms2 t) (hs2 t) (ms3 t) (hs3 t) (ms4 t) (hs4 t) scM (Memref.isWhole_whole _) ((firstPoint_iff t).mpr h) (iblk m c 0 t) (iblk m c 1 t) (iblk m c 2 t) (iblk m c 3 t)).1)
  else
    VO.read (Elt F) (VO.writes (Elt F) VO.junk (runLater c (grid0.coords t) (ms0 t) (hs0 t) (ms1 t) (hs1 t) (ms2 t) (hs2 t) (ms3 t) (hs3 t) (ms4 t) (hs4 t) scM (Memref.isWhole_whole _) (fun hc => h ((firstPoint_iff t).mp hc)) (iblk m c 2 t) (iblk m c 3 t) (support m c)).1)

/-- The region invariant before position `n`: the scratch at anything before the first point, afterwards at what
    the first point left. -/
def PhiS (c : Dev nD) : ℕ → sProp 𝕄
  | 0 => iprop(∃ d, owns (c : Thread nD τ) scM fullShare d)
  | _ + 1 => owns (c : Thread nD τ) scM fullShare (support m c)

/-! ## The pipeline's proof data -/

/-- The proof data on core `c`: the arrays as the region finds them; after the body each input's buffer at its
    block and the output's at `outAt`; the invariant `PhiS`; the third operand's buffer held half by window 2 and
    half by window 3; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not: the body leaves
    the block in place, and an unfetched window's index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' memrefs hold their blocks; at the first point the scratch holds anything
    and the first run applies, leaving the product in it; at a later point the scratch holds that product and
    the later run applies, leaving it as it was. The output's buffer is handed over at anything and comes back
    with the point's pieces written, which cover it. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = owns (c : Thread nD τ) scM fullShare (support m c) from rfl]
  rw [show (dats m 0 c).leavesExact 0 t = owns (c : Thread nD τ) (ms0 t) fullShare (iblk m c 0 t) from by
    unfold Dat.leavesExact; rw [after0]]
  rw [show (dats m 0 c).leavesExact 1 t = owns (c : Thread nD τ) (ms1 t) fullShare (iblk m c 1 t) from by
    unfold Dat.leavesExact; rw [after1]]
  rw [show (dats m 0 c).leavesExact 2 t = owns (c : Thread nD τ) (ms2 t) fullShare (iblk m c 2 t) from by
    unfold Dat.leavesExact; rw [after2]]
  rw [show (dats m 0 c).leavesExact 3 t = owns (c : Thread nD τ) (ms3 t) fullShare (iblk m c 3 t) from by
    unfold Dat.leavesExact; rw [after3]]
  rw [show (dats m 0 c).leavesExact 4 t = owns (c : Thread nD τ) (ms4 t) fullShare (outAt m c t) from by
    unfold Dat.leavesExact; rw [after4]]
  rw [Phi_castSucc m c t]
  by_cases hz : t.val = 0
  · obtain rfl : t = t0 := Fin.ext hz
    rw [show PhiS m c (t0 : Fin cfg0.N).val = iprop(∃ d, owns (c : Thread nD τ) scM fullShare d) from rfl]
    unfold outAt support
    rw [dif_pos rfl]
    iintro ⟨HS, Ho, ⟨%d0, H0⟩, ⟨%d1, H1⟩, ⟨%d2, H2⟩, ⟨%d3, H3⟩, ⟨%d4, H4⟩⟩
    iapply ((runFirst c (grid0.coords t0) (ms0 t0) (hs0 t0) (ms1 t0) (hs1 t0) (ms2 t0) (hs2 t0) (ms3 t0) (hs3 t0) (ms4 t0) (hs4 t0) scM (Memref.isWhole_whole _) first_t0 (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverFirstScratch c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirstOut c _ _ _ _ _ _ _ _ _ _ _ _ _ _ _ _ _ _)
  · obtain ⟨n, hn⟩ : ∃ n, t.val = n + 1 := Nat.exists_eq_succ_of_ne_zero hz
    rw [show PhiS m c t.val = owns (c : Thread nD τ) scM fullShare (support m c) from by rw [hn]; rfl]
    unfold outAt
    rw [dif_neg hz]
    iintro ⟨HS, Ho, ⟨%d0, H0⟩, ⟨%d1, H1⟩, ⟨%d2, H2⟩, ⟨%d3, H3⟩, ⟨%d4, H4⟩⟩
    iapply ((runLater c (grid0.coords t) (ms0 t) (hs0 t) (ms1 t) (hs1 t) (ms2 t) (hs2 t) (ms3 t) (hs3 t) (ms4 t) (hs4 t) scM (Memref.isWhole_whole _) (fun hc => hz ((firstPoint_iff t).mp hc)) (iblk m c 2 t) (iblk m c 3 t) (support m c)).2 Set.univ _)
    isplitl [H2]; · iexact H2
    isplitl [H3]; · iexact H3
    isplitl [H4]; · iexists _; iexact H4
    isplitl [HS]; · iexact HS
    iintro ⟨H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLaterOut c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRegion.lean ====
/-
  The launch: the region's run from the body obligation, and the frame.

  What is particular to this kernel is the entry: the third operand is read through two windows, so its one
  buffer, whole at the launch, is dealt half to each of them; every other array goes whole to its one window.
  The invariant is entered from the scratch at anything and gives it back at the end.
-/
import proofs.«175780_g6734508720141_cont_9to1c4b_724_7_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers dealt to the windows -/

/-- The four distinct buffers behind the five windows' arrays, each whole at its launch contents, make the proof
    data's arrays at entry: the third operand's buffer is split along its share, half to the window on its even
    blocks and half to the window on its odd blocks. -/
theorem hsplit (c : Dev nD) :
    (Pipeline.arrBufs spec0 c (V m c) : sProp 𝕄) ⊢ (dats m 0 c).arrays ((dats m 0 c).arrAt · 0) := by
  have e0 : (((cfg0.win 0).arr.view.loc (c : Thread nD τ)) ↦[(cfg0.win 0).arr.view.set]{(dats m 0 c).share 0} (dats m 0 c).arrAt 0 0 : sProp 𝕄)
      = (((c : Thread nD τ).loc main_arg0) ↦{fullShare} V m c main_arg0) := by
    rw [show (cfg0.win 0).arr.view.set = Finset.univ from (arr_whole0 0).set_eq_univ]; rfl
  have e1 : (((cfg0.win 1).arr.view.loc (c : Thread nD τ)) ↦[(cfg0.win 1).arr.view.set]{(dats m 0 c).share 1} (dats m 0 c).arrAt 1 0 : sProp 𝕄)
      = (((c : Thread nD τ).loc main_arg2) ↦{fullShare} V m c main_arg2) := by
    rw [show (cfg0.win 1).arr.view.set = Finset.univ from (arr_whole0 1).set_eq_univ]; rfl
  have e2 : (((cfg0.win 2).arr.view.loc (c : Thread nD τ)) ↦[(cfg0.win 2).arr.view.set]{(dats m 0 c).share 2} (dats m 0 c).arrAt 2 0 : sProp 𝕄)
      = (((c : Thread nD τ).loc main_arg1) ↦{fullShare.left} V m c main_arg1) := by
    rw [show (cfg0.win 2).arr.view.set = Finset.univ from (arr_whole0 2).set_eq_univ]; rfl
  have e3 : (((cfg0.win 3).arr.view.loc (c : Thread nD τ)) ↦[(cfg0.win 3).arr.view.set]{(dats m 0 c).share 3} (dats m 0 c).arrAt 3 0 : sProp 𝕄)
      = (((c : Thread nD τ).loc main_arg1) ↦{fullShare.right} V m c main_arg1) := by
    rw [show (cfg0.win 3).arr.view.set = Finset.univ from (arr_whole0 3).set_eq_univ]; rfl
  have e4 : (((cfg0.win 4).arr.view.loc (c : Thread nD τ)) ↦[(cfg0.win 4).arr.view.set]{(dats m 0 c).share 4} (dats m 0 c).arrAt 4 0 : sProp 𝕄)
      = (((c : Thread nD τ).loc main_v0) ↦{fullShare} V m c main_v0) := by
    rw [show (cfg0.win 4).arr.view.set = Finset.univ from (arr_whole0 4).set_eq_univ]; rfl
  have eL : bigSep (Finset.univ.image (Pipeline.arrRef spec0)) (fun b => (((c : Thread nD τ).loc b) ↦{fullShare} V m c b : sProp 𝕄))
      = iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_v0) ↦{fullShare} V m c main_v0)) :=
    bigSep_eq_bigSepL_of_eq [main_arg0, main_arg2, main_arg1, main_v0] (by decide) (by decide) _
  unfold Pipeline.arrBufs Dat.arrays
  rw [bigSep_W0, eL, e0, e1, e2, e3, e4]
  iintro ⟨H0, H2, H1, Hv⟩
  ihave H1 := (pointsTo_share (PosShare.mem_left_op_right fullShare)).1 $$ H1
  icases H1 with ⟨H1l, H1r⟩
  isplitl [H0]; · iexact H0
  isplitl [H2]; · iexact H2
  isplitl [H1l]; · iexact H1l
  isplitl [H1r]; · iexact H1r
  iexact Hv

/-! ## The invariant at the region's two ends -/

/-- What the launch hands the region of the kernel's own buffers — the scratch at anything — is the invariant
    before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [scopedRest_scratch]
  exact Idealize.SL.BI.Entails.refl _

/-- After the last point the invariant gives the scratch back; what it holds is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have h25 : (Fin.last cfg0.N).val = 24 + 1 := by rw [Fin.val_last]; exact N_0
  rw [scopedRest_scratch, show (dats m 0 c).Φ (Fin.last cfg0.N) = PhiS m c (Fin.last cfg0.N).val from rfl, h25]
  show owns (c : Thread nD τ) scM fullShare (support m c) ⊢ _
  iintro H
  iexists _
  iexact H

/-! ## The run and the frame -/

set_option backward.isDefEq.respectTransparency.types false in
/-- For any values, from any memory with zero counters: every weakly fair execution of @main terminates, and
    every final state has every window's array at what the proof data compute and every other unscoped buffer
    at its launch contents. -/
theorem run_main : θ_run defs (onTc (τ := τ) (main (F := F))) (s₀ m ρ) (Pipeline.FramePost cfgs (dats m) 0 (V m)) :=
  Cert.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m)
    (hmain := Pipeline.hmain_region cfgs 0 defs₀ Variants.none m main (fun c => by rw [main_chain]; rfl))
    (hsplit := hsplit m) (hin := hin m) (hout := hout m)

/-- info: 'Cert.Kernel.Hand.run_main' depends on axioms: [propext, Classical.choice, Quot.sound] -/
#guard_msgs in #print axioms run_main

/-- An input window's array is never written: it ends at its launch contents. -/
theorem kept (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- THE FRAME: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (kept m c 0 rfl _), ((h c).1 2).trans (kept m c 2 rfl _), ((h c).1 1).trans (kept m c 1 rfl _)⟩)
    (run_main m ρ)

end Cert.Kernel.Hand

end
-- ==== Proof.KernelIdealSetup.lean ====
/-
  What the two runs of the kernel body and the frame share: the arrays as the region finds them, each
  window's block at a grid point, the one condition the body branches on, and the staging memrefs by name.

  The region is entered with no host operation before it, so every array holds its launch contents. The body
  branches once, on "this is the first grid point": there it computes the product of the first two operands
  into its scratch; at every point it then multiplies two row blocks of the third operand by the scratch.
-/
import proofs.«175780_g6734508720141_cont_9to1c4b_724_7_alg».proof.Proof.Gen.KernelIdeal.Launch
import proofs.«175780_g6734508720141_cont_9to1c4b_724_7_alg».proof.Proof.Gen.KernelIdeal.Skeleton
import proofs.«175780_g6734508720141_cont_9to1c4b_724_7_alg».proof.Proof.Gen.KernelIdeal.Points
import proofs.«175780_g6734508720141_cont_9to1c4b_724_7_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffer contents when the region is entered: the launch contents (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's one condition -/

/-- The body's branch condition, from the grid coordinate: "the coordinate is zero". -/
abbrev firstPoint (i : grid0.Coords) : Prop := (Scalar.cmpi .ne (Scalar.extui (Scalar.cmpi .eq (BitVec.ofNat 32 (i 0).val) 0#32)) 0#32) = 1#1

/-- It holds at point 0 and at no other of the 25 points. -/
theorem firstPoint_iff : ∀ t : Fin cfg0.N, firstPoint (grid0.coords t) ↔ t.val = 0 :=
  (by decide +kernel : ∀ t : Fin grid0.N, firstPoint (grid0.coords t) ↔ t.val = 0)

/-! ## The staging memrefs at a point, as the pipeline passes them to the body -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S10000x128 .f32 := Memref.whole cc0_scratch0
/-- One staging buffer of the output window, through which its contents are stated (the choice does not matter). -/
abbrev VO : View sig .tc .vmem S400x128 .f32 := (Memref.whole cc0_stg4_0 : Memref sig .tc .vmem S400x128 .f32).view
/-- The scratch as a view. -/
abbrev VS : View sig .tc .vmem S10000x128 .f32 := (scM : Memref sig .tc .vmem S10000x128 .f32).view

/-- The kernel's scratch is the one scoped buffer that is no staging buffer: the scoped rest is the scratch
    owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KernelIdealRunFirst.lean ====
/-
  The kernel body at the FIRST grid point, run once on any whole staging memrefs: the four inputs at given
  contents, the output's buffer and the scratch at anything. The branch is taken: the scratch is stored whole
  with the product of the first two inputs, then each half of the output block is stored with the product
  of one row block by the scratch. The pieces the stores leave in the output's buffer and in the scratch are
  found by the run itself.
-/
import proofs.«175780_g6734508720141_cont_9to1c4b_724_7_alg».proof.Proof.KernelIdealSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave at the first point (output block; scratch), with the proof that the body
    runs to any continuation that holds the inputs as they were and the two written buffers with those pieces. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : firstPoint i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg1 harg1 arg2 harg2 arg3 harg3 arg4 harg4 arg5 harg5 arg6 harg6) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1
    obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

end Cert.KernelIdeal.Hand

end
-- ==== Proof.KernelIdealRunLater.lean ====
/-
  The kernel body at any LATER grid point, run once on any whole staging memrefs: the two row blocks and the
  scratch at given contents, the output's buffer at anything. The branch is not taken: the scratch is only
  read, and each half of the output block is stored with the product of one row block by the scratch. The
  first two inputs' buffers are not touched at all.
-/
import proofs.«175780_g6734508720141_cont_9to1c4b_724_7_alg».proof.Proof.KernelIdealSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block at a later point, with the proof that the body runs
    to any continuation that holds the row blocks and the scratch as they were and the output's buffer with
    those pieces. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬firstPoint i)
    (x2 : Vec F S200x10000 .f32) (x3 : Vec F S200x10000 .f32) (xs : Vec F S10000x128 .f32) :
    { L4 : List (View.Piece (Elt F) S400x128 .f32) //
      ∀ (E : Set ℕ) (K : PUnit → sProp 𝕄),
        iprop(owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f2, %hf2, H2⟩, ⟨%f3, %hf3, H3⟩, ⟨%d4, %f4, -, H4⟩, ⟨%f5, %hf5, H5⟩, Hk⟩
    obtain rfl := harg3.eq_unread hf2; obtain rfl := harg4.eq_unread hf3
    obtain rfl := harg6.eq_unread hf5
    sl_exec (disch := exact hc)
    sl_step
    iapply Hk
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H5

end Cert.KernelIdeal.Hand

end
-- ==== Proof.KernelIdealFrame.lean ====
/-
  The frame run of the kernel's one region, and what its output array holds afterwards.

  The region has five windows on a grid of 25 points: the first two operands whole (fetched once), the third
  operand TWICE — its even and its odd blocks of 200 rows, two windows on one array —, and the result in blocks
  of 400 rows, written back at every point. The body keeps the product of the first two operands in a scratch
  buffer from the first point on. So the proof data are: every input window leaves its block as it found it;
  the output window leaves what the point's run stored; the invariant between points is the scratch, at anything
  before the first point and at the first point's product after it; the third operand's buffer is held half
  by each of the two windows that read it.
-/
import proofs.«175780_g6734508720141_cont_9to1c4b_724_7_alg».proof.Proof.KernelIdealRunFirst
import proofs.«175780_g6734508720141_cont_9to1c4b_724_7_alg».proof.Proof.KernelIdealRunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs' pieces cover -/

/-- At the first point the two stores of 200 rows tile the output block. -/
theorem coverFirstOut (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : firstPoint i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x128.size (by sl_kernel_rfl) y

/-- At the first point the one whole store covers the scratch. -/
theorem coverFirstScratch (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : firstPoint i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y

/-- At a later point the two stores of 200 rows tile the output block. -/
theorem coverLaterOut (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬firstPoint i)
    (x2 : Vec F S200x10000 .f32) (x3 : Vec F S200x10000 .f32) (xs : Vec F S10000x128 .f32) (y : S400x128.Idx) :
    ∃ pc ∈ (runLater c i arg1 harg1 arg2 harg2 arg3 harg3 arg4 harg4 arg5 harg5 arg6 harg6 hc x2 x3 xs).1, y ∈ pc.1.set :=
  View.cover_of_tiledL (runLater c i arg1 harg1 arg2 harg2 arg3 harg3 arg4 harg4 arg5 harg5 arg6 harg6 hc x2 x3 xs).1 S200x128.size (by sl_kernel_rfl) y

/-! ## What the scratch and the output block hold, point by point -/

/-- The first grid point. -/
abbrev t0 : Fin cfg0.N := ⟨0, by rw [show cfg0.N = 25 from N_0]; omega⟩

theorem first_t0 : firstPoint (grid0.coords t0) := (firstPoint_iff t0).mpr rfl

/-- What the first point leaves in the scratch (and every later point finds there): its pieces read back. -/
def support (c : Dev nD) : Vec F S10000x128 .f32 :=
  VS.read (Elt F) (VS.writes (Elt F) VS.junk (runFirst c (grid0.coords t0) (ms0 t0) (hs0 t0) (ms1 t0) (hs1 t0) (ms2 t0) (hs2 t0) (ms3 t0) (hs3 t0) (ms4 t0) (hs4 t0) scM (Memref.isWhole_whole _) first_t0 (iblk m c 0 t0) (iblk m c 1 t0) (iblk m c 2 t0) (iblk m c 3 t0)).2.1)

/-- What the body leaves in the output's staging buffer at point `t`: the pieces of that point's run, read back. -/
def outAt (c : Dev nD) (t : Fin cfg0.N) : Vec F S400x128 .f32 :=
  if h : t.val = 0 then
    VO.read (Elt F) (VO.writes (Elt F) VO.junk (runFirst c (grid0.coords t) (ms0 t) (hs0 t) (ms1 t) (hs1 t) (ms2 t) (hs2 t) (ms3 t) (hs3 t) (ms4 t) (hs4 t) scM (Memref.isWhole_whole _) ((firstPoint_iff t).mpr h) (iblk m c 0 t) (iblk m c 1 t) (iblk m c 2 t) (iblk m c 3 t)).1)
  else
    VO.read (Elt F) (VO.writes (Elt F) VO.junk (runLater c (grid0.coords t) (ms0 t) (hs0 t) (ms1 t) (hs1 t) (ms2 t) (hs2 t) (ms3 t) (hs3 t) (ms4 t) (hs4 t) scM (Memref.isWhole_whole _) (fun hc => h ((firstPoint_iff t).mp hc)) (iblk m c 2 t) (iblk m c 3 t) (support m c)).1)

/-- The region invariant before position `n`: the scratch at anything before the first point, afterwards at what
    the first point left. -/
def PhiS (c : Dev nD) : ℕ → sProp 𝕄
  | 0 => iprop(∃ d, owns (c : Thread nD τ) scM fullShare d)
  | _ + 1 => owns (c : Thread nD τ) scM fullShare (support m c)

/-! ## The pipeline's proof data -/

/-- The proof data on core `c`: the arrays as the region finds them; after the body each input's buffer at its
    block and the output's at `outAt`; the invariant `PhiS`; the third operand's buffer held half by window 2 and
    half by window 3; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not: the body leaves
    the block in place, and an unfetched window's index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' memrefs hold their blocks; at the first point the scratch holds anything
    and the first run applies, leaving the product in it; at a later point the scratch holds that product and
    the later run applies, leaving it as it was. The output's buffer is handed over at anything and comes back
    with the point's pieces written, which cover it. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = owns (c : Thread nD τ) scM fullShare (support m c) from rfl]
  rw [show (dats m 0 c).leavesExact 0 t = owns (c : Thread nD τ) (ms0 t) fullShare (iblk m c 0 t) from by
    unfold Dat.leavesExact; rw [after0]]
  rw [show (dats m 0 c).leavesExact 1 t = owns (c : Thread nD τ) (ms1 t) fullShare (iblk m c 1 t) from by
    unfold Dat.leavesExact; rw [after1]]
  rw [show (dats m 0 c).leavesExact 2 t = owns (c : Thread nD τ) (ms2 t) fullShare (iblk m c 2 t) from by
    unfold Dat.leavesExact; rw [after2]]
  rw [show (dats m 0 c).leavesExact 3 t = owns (c : Thread nD τ) (ms3 t) fullShare (iblk m c 3 t) from by
    unfold Dat.leavesExact; rw [after3]]
  rw [show (dats m 0 c).leavesExact 4 t = owns (c : Thread nD τ) (ms4 t) fullShare (outAt m c t) from by
    unfold Dat.leavesExact; rw [after4]]
  rw [Phi_castSucc m c t]
  by_cases hz : t.val = 0
  · obtain rfl : t = t0 := Fin.ext hz
    rw [show PhiS m c (t0 : Fin cfg0.N).val = iprop(∃ d, owns (c : Thread nD τ) scM fullShare d) from rfl]
    unfold outAt support
    rw [dif_pos rfl]
    iintro ⟨HS, Ho, ⟨%d0, H0⟩, ⟨%d1, H1⟩, ⟨%d2, H2⟩, ⟨%d3, H3⟩, ⟨%d4, H4⟩⟩
    iapply ((runFirst c (grid0.coords t0) (ms0 t0) (hs0 t0) (ms1 t0) (hs1 t0) (ms2 t0) (hs2 t0) (ms3 t0) (hs3 t0) (ms4 t0) (hs4 t0) scM (Memref.isWhole_whole _) first_t0 (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverFirstScratch c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirstOut c _ _ _ _ _ _ _ _ _ _ _ _ _ _ _ _ _ _)
  · obtain ⟨n, hn⟩ : ∃ n, t.val = n + 1 := Nat.exists_eq_succ_of_ne_zero hz
    rw [show PhiS m c t.val = owns (c : Thread nD τ) scM fullShare (support m c) from by rw [hn]; rfl]
    unfold outAt
    rw [dif_neg hz]
    iintro ⟨HS, Ho, ⟨%d0, H0⟩, ⟨%d1, H1⟩, ⟨%d2, H2⟩, ⟨%d3, H3⟩, ⟨%d4, H4⟩⟩
    iapply ((runLater c (grid0.coords t) (ms0 t) (hs0 t) (ms1 t) (hs1 t) (ms2 t) (hs2 t) (ms3 t) (hs3 t) (ms4 t) (hs4 t) scM (Memref.isWhole_whole _) (fun hc => hz ((firstPoint_iff t).mp hc)) (iblk m c 2 t) (iblk m c 3 t) (support m c)).2 Set.univ _)
    isplitl [H2]; · iexact H2
    isplitl [H3]; · iexact H3
    isplitl [H4]; · iexists _; iexact H4
    isplitl [HS]; · iexact HS
    iintro ⟨H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLaterOut c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRegion.lean ====
/-
  The launch: the region's run from the body obligation, and the frame.

  What is particular to this kernel is the entry: the third operand is read through two windows, so its one
  buffer, whole at the launch, is dealt half to each of them; every other array goes whole to its one window.
  The invariant is entered from the scratch at anything and gives it back at the end.
-/
import proofs.«175780_g6734508720141_cont_9to1c4b_724_7_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers dealt to the windows -/

/-- The four distinct buffers behind the five windows' arrays, each whole at its launch contents, make the proof
    data's arrays at entry: the third operand's buffer is split along its share, half to the window on its even
    blocks and half to the window on its odd blocks. -/
theorem hsplit (c : Dev nD) :
    (Pipeline.arrBufs spec0 c (V m c) : sProp 𝕄) ⊢ (dats m 0 c).arrays ((dats m 0 c).arrAt · 0) := by
  have e0 : (((cfg0.win 0).arr.view.loc (c : Thread nD τ)) ↦[(cfg0.win 0).arr.view.set]{(dats m 0 c).share 0} (dats m 0 c).arrAt 0 0 : sProp 𝕄)
      = (((c : Thread nD τ).loc main_arg0) ↦{fullShare} V m c main_arg0) := by
    rw [show (cfg0.win 0).arr.view.set = Finset.univ from (arr_whole0 0).set_eq_univ]; rfl
  have e1 : (((cfg0.win 1).arr.view.loc (c : Thread nD τ)) ↦[(cfg0.win 1).arr.view.set]{(dats m 0 c).share 1} (dats m 0 c).arrAt 1 0 : sProp 𝕄)
      = (((c : Thread nD τ).loc main_arg2) ↦{fullShare} V m c main_arg2) := by
    rw [show (cfg0.win 1).arr.view.set = Finset.univ from (arr_whole0 1).set_eq_univ]; rfl
  have e2 : (((cfg0.win 2).arr.view.loc (c : Thread nD τ)) ↦[(cfg0.win 2).arr.view.set]{(dats m 0 c).share 2} (dats m 0 c).arrAt 2 0 : sProp 𝕄)
      = (((c : Thread nD τ).loc main_arg1) ↦{fullShare.left} V m c main_arg1) := by
    rw [show (cfg0.win 2).arr.view.set = Finset.univ from (arr_whole0 2).set_eq_univ]; rfl
  have e3 : (((cfg0.win 3).arr.view.loc (c : Thread nD τ)) ↦[(cfg0.win 3).arr.view.set]{(dats m 0 c).share 3} (dats m 0 c).arrAt 3 0 : sProp 𝕄)
      = (((c : Thread nD τ).loc main_arg1) ↦{fullShare.right} V m c main_arg1) := by
    rw [show (cfg0.win 3).arr.view.set = Finset.univ from (arr_whole0 3).set_eq_univ]; rfl
  have e4 : (((cfg0.win 4).arr.view.loc (c : Thread nD τ)) ↦[(cfg0.win 4).arr.view.set]{(dats m 0 c).share 4} (dats m 0 c).arrAt 4 0 : sProp 𝕄)
      = (((c : Thread nD τ).loc main_v0) ↦{fullShare} V m c main_v0) := by
    rw [show (cfg0.win 4).arr.view.set = Finset.univ from (arr_whole0 4).set_eq_univ]; rfl
  have eL : bigSep (Finset.univ.image (Pipeline.arrRef spec0)) (fun b => (((c : Thread nD τ).loc b) ↦{fullShare} V m c b : sProp 𝕄))
      = iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_v0) ↦{fullShare} V m c main_v0)) :=
    bigSep_eq_bigSepL_of_eq [main_arg0, main_arg2, main_arg1, main_v0] (by decide) (by decide) _
  unfold Pipeline.arrBufs Dat.arrays
  rw [bigSep_W0, eL, e0, e1, e2, e3, e4]
  iintro ⟨H0, H2, H1, Hv⟩
  ihave H1 := (pointsTo_share (PosShare.mem_left_op_right fullShare)).1 $$ H1
  icases H1 with ⟨H1l, H1r⟩
  isplitl [H0]; · iexact H0
  isplitl [H2]; · iexact H2
  isplitl [H1l]; · iexact H1l
  isplitl [H1r]; · iexact H1r
  iexact Hv

/-! ## The invariant at the region's two ends -/

/-- What the launch hands the region of the kernel's own buffers — the scratch at anything — is the invariant
    before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [scopedRest_scratch]
  exact Idealize.SL.BI.Entails.refl _

/-- After the last point the invariant gives the scratch back; what it holds is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have h25 : (Fin.last cfg0.N).val = 24 + 1 := by rw [Fin.val_last]; exact N_0
  rw [scopedRest_scratch, show (dats m 0 c).Φ (Fin.last cfg0.N) = PhiS m c (Fin.last cfg0.N).val from rfl, h25]
  show owns (c : Thread nD τ) scM fullShare (support m c) ⊢ _
  iintro H
  iexists _
  iexact H

/-! ## The run and the frame -/

set_option backward.isDefEq.respectTransparency.types false in
/-- For any values, from any memory with zero counters: every weakly fair execution of @main terminates, and
    every final state has every window's array at what the proof data compute and every other unscoped buffer
    at its launch contents. -/
theorem run_main : θ_run defs (onTc (τ := τ) (main (F := F))) (s₀ m ρ) (Pipeline.FramePost cfgs (dats m) 0 (V m)) :=
  Cert.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m)
    (hmain := Pipeline.hmain_region cfgs 0 defs₀ Variants.none m main (fun c => by rw [main_chain]; rfl))
    (hsplit := hsplit m) (hin := hin m) (hout := hout m)

/-- info: 'Cert.KernelIdeal.Hand.run_main' depends on axioms: [propext, Classical.choice, Quot.sound] -/
#guard_msgs in #print axioms run_main

/-- An input window's array is never written: it ends at its launch contents. -/
theorem kept (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- THE FRAME: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (kept m c 0 rfl _), ((h c).1 2).trans (kept m c 2 rfl _), ((h c).1 1).trans (kept m c 1 rfl _)⟩)
    (run_main m ρ)

end Cert.KernelIdeal.Hand

end
-- ==== Proof.KernelIdealPieces.lean ====
/-
  What the runs' found pieces are, in the body's own terms.

  After the first point the scratch holds the body's first product of the two whole operand blocks. After any
  point the output's staging buffer holds two stores of 200 rows: rows 0–199 the product of the even row block
  by the scratch, rows 200–399 the product of the odd row block by the scratch — the same two stores at the
  first point (where the scratch was just written and is read back) and at every later one (where it is found).
-/
import proofs.«175780_g6734508720141_cont_9to1c4b_724_7_alg».proof.Proof.KernelIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := funext fun a => by fin_cases a <;> rfl

/-- The scratch after the first point: the first product, of the first two operands' whole blocks. -/
theorem support_eq (c : Dev nD) : support m c = k0_pay1 (iblk m c 0 t0) (iblk m c 1 t0) := by
  unfold support
  rw [View.read_writes_junk_eq_canon]
  unfold runFirst
  dsimp only
  sl_unfold_words
  simp only [View.readAt_eq_ld, Memref.IsWhole.read_unread, View.ld_unit_zero (S := S10000x128) zeros2, View.ld_unit_zero (S := S128x128) zeros2]
  exact View.canon_unit_zero (S := S10000x128) zeros2 _ _

/-- The two stores into the output block at point `t`, over the point's two row blocks and the scratch. -/
def outPieces (c : Dev nD) (t : Fin cfg0.N) : List (View.Piece (Elt F) S400x128 .f32) :=
  [⟨Rect.unit ![200, 0] S200x128.size inb_S400x128_S200x128_200_0, k0_pay3 (iblk m c 3 t) (support m c)⟩,
   ⟨Rect.unit ![0, 0] S200x128.size inb_S400x128_S200x128_0_0, k0_pay2 (iblk m c 2 t) (support m c)⟩]

/-- What the body leaves in the output's buffer at any point is those two stores. -/
theorem outAt_eq (c : Dev nD) (t : Fin cfg0.N) : outAt m c t = View.canon (outPieces m c t) := by
  unfold outAt outPieces
  split
  · rename_i h
    obtain rfl : t = t0 := Fin.ext h
    rw [View.read_writes_junk_eq_canon, support_eq]
    unfold runFirst
    dsimp only
    sl_unfold_words
    simp only [View.readAt_eq_ld, Memref.IsWhole.read_unread, View.ld_unit_zero (S := S10000x128) zeros2, View.ld_unit_zero (S := S128x128) zeros2,
      View.ld_unit_zero (S := S200x10000) zeros2, View.readCov_unit_zero (S := S10000x128) _ zeros2]
  · rw [View.read_writes_junk_eq_canon]
    unfold runLater
    dsimp only
    have hs : ∀ X : Vec F S10000x128 .f32, View.read (Elt F) (View.whole cc0_scratch0)
        ((Memref.isWhole_whole cc0_scratch0).unread X) = X :=
      fun X => (Memref.isWhole_whole cc0_scratch0).read_unread X
    simp only [View.readAt_eq_ld, Memref.IsWhole.read_unread, View.ld_unit_zero (S := S10000x128) zeros2, View.ld_unit_zero (S := S200x10000) zeros2, hs]

end Cert.KernelIdeal.Hand

end
-- ==== Proof.KernelIdealProducts.lean ====
/-
  The body's two matrix products read at an index, over the extended reals.

  Into a zero accumulator a matrix product is a plain finite sum: entry (r, j) of u · v is the sum over the
  contracted axis k of u(r, k) · v(k, j). The body has two such products: the 10000×128 by 128×128 one that fills
  the scratch, and the 200×10000 by 10000×128 one that fills each half of an output block (twice, with the same
  dimension record). The three payloads of the body are these products, the first through a shape cast that
  changes nothing.
-/
import proofs.«175780_g6734508720141_cont_9to1c4b_724_7_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.TcCoe Idealize.SL.Sem

/-! ### The record of the firstProduct -/

theorem lhs_firstProduct_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_firstProduct_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_firstProduct_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_firstProduct_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The firstProduct into a zero accumulator, at an index: row `i 0` of the left factor against column `i 1` of the right. -/
theorem firstProduct_apply (u : FVec Ideal S10000x128 .f32) (v : FVec Ideal S128x128 .f32) (i : S10000x128.Idx) :
    matmul (F := Ideal) dot_S10000x128_S128x128_S10000x128_1_0_0_1_n_n none u v (constant S10000x128 .f32 0x00000000#32) i
      = ∑ k : Fin 128, u (ValueIdx.ix2 (⟨(i 0).val, (i 0).isLt⟩ : Fin 10000) k) * v (ValueIdx.ix2 k (⟨(i 1).val, (i 1).isLt⟩ : Fin 128)) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = ValueIdx.ix2 (⟨(i 0).val, (i 0).isLt⟩ : Fin 10000) k := funext fun a => Fin.ext (by
    match a with
    | ⟨0, _⟩ => exact lhs_firstProduct_0 _ _
    | ⟨1, _⟩ => exact (lhs_firstProduct_1 _ _).trans hk)
  have er : dot_S10000x128_S128x128_S10000x128_1_0_0_1_n_n.rhsIdx i ((ValueIdx.contrEquiv1 dot_S10000x128_S128x128_S10000x128_1_0_0_1_n_n 128 rfl rfl).symm k) = ValueIdx.ix2 k (⟨(i 1).val, (i 1).isLt⟩ : Fin 128) := funext fun a => Fin.ext (by
    match a with
    | ⟨0, _⟩ => exact (rhs_firstProduct_0 _ _).trans hk
    | ⟨1, _⟩ => exact rhs_firstProduct_1 _ _)
  rw [el, er]

/-! ### The record of the blockProduct -/

theorem lhs_blockProduct_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_blockProduct_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_blockProduct_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_blockProduct_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The blockProduct into a zero accumulator, at an index: row `i 0` of the left factor against column `i 1` of the right. -/
theorem blockProduct_apply (u : FVec Ideal S200x10000 .f32) (v : FVec Ideal S10000x128 .f32) (i : S200x128.Idx) :
    matmul (F := Ideal) dot_S200x10000_S10000x128_S200x128_1_0_0_1_n_n none u v (constant S200x128 .f32 0x00000000#32) i
      = ∑ k : Fin 10000, u (ValueIdx.ix2 (⟨(i 0).val, (i 0).isLt⟩ : Fin 200) k) * v (ValueIdx.ix2 k (⟨(i 1).val, (i 1).isLt⟩ : Fin 128)) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx i ((ValueIdx.contrEquiv1 dot_S200x10000_S10000x128_S200x128_1_0_0_1_n_n 10000 rfl rfl).symm k) = ValueIdx.ix2 (⟨(i 0).val, (i 0).isLt⟩ : Fin 200) k := funext fun a => Fin.ext (by
    match a with
    | ⟨0, _⟩ => exact lhs_blockProduct_0 _ _
    | ⟨1, _⟩ => exact (lhs_blockProduct_1 _ _).trans hk)
  have er : dot_S200x10000_S10000x128_S200x128_1_0_0_1_n_n.rhsIdx i ((ValueIdx.contrEquiv1 dot_S200x10000_S10000x128_S200x128_1_0_0_1_n_n 10000 rfl rfl).symm k) = ValueIdx.ix2 k (⟨(i 1).val, (i 1).isLt⟩ : Fin 128) := funext fun a => Fin.ext (by
    match a with
    | ⟨0, _⟩ => exact (rhs_blockProduct_0 _ _).trans hk
    | ⟨1, _⟩ => exact rhs_blockProduct_1 _ _)
  rw [el, er]

/-! ### The body's payloads -/

/-- The scratch's payload: the first two operands' product (the shape cast is to the same shape). -/
theorem pay1_apply (u : FVec Ideal S10000x128 .f32) (v : FVec Ideal S128x128 .f32) (i : S10000x128.Idx) :
    k0_pay1 (F := Ideal) u v i
      = ∑ l : Fin 128, u (ValueIdx.ix2 (⟨(i 0).val, (i 0).isLt⟩ : Fin 10000) l) * v (ValueIdx.ix2 l (⟨(i 1).val, (i 1).isLt⟩ : Fin 128)) := by
  unfold k0_pay1
  rw [shapeCast_self]
  exact firstProduct_apply u v i

/-- The payload of the output block's rows 0–199. -/
theorem pay2_apply (u : FVec Ideal S200x10000 .f32) (v : FVec Ideal S10000x128 .f32) (i : S200x128.Idx) :
    k0_pay2 (F := Ideal) u v i
      = ∑ k : Fin 10000, u (ValueIdx.ix2 (⟨(i 0).val, (i 0).isLt⟩ : Fin 200) k) * v (ValueIdx.ix2 k (⟨(i 1).val, (i 1).isLt⟩ : Fin 128)) :=
  blockProduct_apply u v i

/-- The payload of the output block's rows 200–399. -/
theorem pay3_apply (u : FVec Ideal S200x10000 .f32) (v : FVec Ideal S10000x128 .f32) (i : S200x128.Idx) :
    k0_pay3 (F := Ideal) u v i
      = ∑ k : Fin 10000, u (ValueIdx.ix2 (⟨(i 0).val, (i 0).isLt⟩ : Fin 200) k) * v (ValueIdx.ix2 k (⟨(i 1).val, (i 1).isLt⟩ : Fin 128)) :=
  blockProduct_apply u v i

end Cert.KernelIdeal.Products

end
-- ==== Proof.KernelIdealValue.lean ====
/-
  What the kernel's result array holds after the run, as ONE function of the three argument arrays.

  Write x, a, w for the arguments (10000×128, 10000×10000, 128×128). The scratch holds s = x · w from the first
  point on: s(k, j) = Σ_l x(k, l) · w(l, j). At point t the body stores, into rows 0–199 of the output block,
  (rows 400t … 400t+199 of a) · s, and into rows 200–399, (rows 400t+200 … 400t+399 of a) · s: the even
  and the odd half-block of a are exactly the two halves of the 400 rows the output block is written back to.
  So the block written back at point t is rows 400t … 400t+399 of

      conv x a w (r, j) = Σ_k a(r, k) · Σ_l x(k, l) · w(l, j),

  and the 25 blocks tile the 10000 rows: the array ends at `conv x a w`. Nothing here uses that the inputs are
  finite: both sides are the same sums of the same products.
-/
import proofs.«175780_g6734508720141_cont_9to1c4b_724_7_alg».proof.Proof.KernelIdealPieces
import proofs.«175780_g6734508720141_cont_9to1c4b_724_7_alg».proof.Proof.KernelIdealProducts
import proofs.«175780_g6734508720141_cont_9to1c4b_724_7_alg».proof.Proof.KernelIdealRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The specification -/

/-- a · (x · w), entry by entry, over the extended reals. -/
def conv (x : (⟨S10000x128, .f32⟩ : BufTy).Contents (Elt Ideal)) (a : (⟨S10000x10000, .f32⟩ : BufTy).Contents (Elt Ideal))
    (w : (⟨S128x128, .f32⟩ : BufTy).Contents (Elt Ideal)) : (⟨S10000x128, .f32⟩ : BufTy).Contents (Elt Ideal) :=
  fun i => ∑ k : Fin 10000, a (ValueIdx.ix2 (⟨(i 0).val, (i 0).isLt⟩ : Fin 10000) k)
    * ∑ l : Fin 128, x (ValueIdx.ix2 k l) * w (ValueIdx.ix2 l (⟨(i 1).val, (i 1).isLt⟩ : Fin 128))

/-- The three argument arrays as the region finds them, at their literal types. -/
abbrev argX (c : Dev nD) : (⟨S10000x128, .f32⟩ : BufTy).Contents (Elt Ideal) := V m c main_arg0
abbrev argA (c : Dev nD) : (⟨S10000x10000, .f32⟩ : BufTy).Contents (Elt Ideal) := V m c main_arg1
abbrev argW (c : Dev nD) : (⟨S128x128, .f32⟩ : BufTy).Contents (Elt Ideal) := V m c main_arg2

/-! ## The windows' block indices over the grid -/

/-- The printed index maps, decided over the 25 points: the first two windows stay at block 0; the third
    operand's two windows are at blocks 2t and 2t+1 of 200 rows; the output is at block t of 400 rows. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

/-! ## The scratch at an index -/

/-- From the first point on the scratch holds x · w. -/
theorem support_apply (c : Dev nD) (k : Fin 10000) (j : Fin 128) :
    support m c (ValueIdx.ix2 k j) = ∑ l : Fin 128, argX m c (ValueIdx.ix2 k l) * argW m c (ValueIdx.ix2 l j) := by
  obtain ⟨e00, e01, e10, e11, -⟩ := idx_facts t0
  rw [support_eq, Products.pay1_apply]
  refine Finset.sum_congr rfl fun l _ => ?_
  congr 1
  · show V m c main_arg0 (((cfg0.win 0).blk t0).view.emb (ValueIdx.ix2 _ l)) = V m c main_arg0 (ValueIdx.ix2 k l)
    congr 1; funext a; apply Fin.ext
    match a with
    | ⟨0, _⟩ => show win0_0.index t0 (0 : Fin 2) * 10000 + 1 * k.val = k.val; omega
    | ⟨1, _⟩ => show win0_0.index t0 (1 : Fin 2) * 128 + 1 * l.val = l.val; omega
  · show V m c main_arg2 (((cfg0.win 1).blk t0).view.emb (ValueIdx.ix2 l _)) = V m c main_arg2 (ValueIdx.ix2 l j)
    congr 1; funext a; apply Fin.ext
    match a with
    | ⟨0, _⟩ => show win0_1.index t0 (0 : Fin 2) * 128 + 1 * l.val = l.val; omega
    | ⟨1, _⟩ => show win0_1.index t0 (1 : Fin 2) * 128 + 1 * j.val = j.val; omega

/-! ## One store of 200 rows, at an index -/

/-- A block of 200 rows of `a` times the scratch, at local entry `x`, is `conv` at the array entry `i` whose row
    is the block's row `x 0` and whose column is `x 1`. -/
theorem row_sum (c : Dev nD) (a2 : FVec Ideal S200x10000 .f32) (x : S200x128.Idx) (i : S10000x128.Idx)
    (ha : ∀ k : Fin 10000, a2 (ValueIdx.ix2 (⟨(x 0).val, (x 0).isLt⟩ : Fin 200) k)
      = argA m c (ValueIdx.ix2 (⟨(i 0).val, (i 0).isLt⟩ : Fin 10000) k))
    (hj : (x 1).val = (i 1).val) :
    (∑ k : Fin 10000, a2 (ValueIdx.ix2 (⟨(x 0).val, (x 0).isLt⟩ : Fin 200) k)
        * support m c (ValueIdx.ix2 k (⟨(x 1).val, (x 1).isLt⟩ : Fin 128)))
      = conv (argX m c) (argA m c) (argW m c) i := by
  have hj' : (⟨(x 1).val, (x 1).isLt⟩ : Fin 128) = ⟨(i 1).val, (i 1).isLt⟩ := Fin.ext hj
  unfold conv
  refine Finset.sum_congr rfl fun k _ => ?_
  rw [ha k, support_apply, hj']

/-- Rows 0–199 of the output block at point `t`: the even half-block of `a` against the scratch. -/
theorem piece_lo (c : Dev nD) (t : Fin cfg0.N) (x : S200x128.Idx) :
    k0_pay2 (iblk m c 2 t) (support m c) x
      = conv (argX m c) (argA m c) (argW m c)
          (((cfg0.win 4).blk t).view.emb ((Rect.unit (s := S400x128) ![0, 0] S200x128.size inb_S400x128_S200x128_0_0).emb x)) := by
  obtain ⟨-, -, -, -, e20, e21, e30, e31, e40, e41⟩ := idx_facts t
  rw [Products.pay2_apply]
  refine row_sum m c (iblk m c 2 t) x _ (fun k => ?_) ?_
  · show V m c main_arg1 (((cfg0.win 2).blk t).view.emb (ValueIdx.ix2 _ k)) = V m c main_arg1 (ValueIdx.ix2 _ k)
    congr 1; funext a; apply Fin.ext
    match a with
    | ⟨0, _⟩ => show win0_2.index t (0 : Fin 2) * 200 + 1 * (x 0).val = win0_4.index t (0 : Fin 2) * 400 + 1 * (0 + 1 * (x 0).val); omega
    | ⟨1, _⟩ => show win0_2.index t (1 : Fin 2) * 10000 + 1 * k.val = k.val; omega
  · show (x 1).val = win0_4.index t (1 : Fin 2) * 128 + 1 * (0 + 1 * (x 1).val); omega

/-- Rows 200–399 of the output block at point `t`: the odd half-block of `a` against the scratch. -/
theorem piece_hi (c : Dev nD) (t : Fin cfg0.N) (x : S200x128.Idx) :
    k0_pay3 (iblk m c 3 t) (support m c) x
      = conv (argX m c) (argA m c) (argW m c)
          (((cfg0.win 4).blk t).view.emb ((Rect.unit (s := S400x128) ![200, 0] S200x128.size inb_S400x128_S200x128_200_0).emb x)) := by
  obtain ⟨-, -, -, -, e20, e21, e30, e31, e40, e41⟩ := idx_facts t
  rw [Products.pay3_apply]
  refine row_sum m c (iblk m c 3 t) x _ (fun k => ?_) ?_
  · show V m c main_arg1 (((cfg0.win 3).blk t).view.emb (ValueIdx.ix2 _ k)) = V m c main_arg1 (ValueIdx.ix2 _ k)
    congr 1; funext a; apply Fin.ext
    match a with
    | ⟨0, _⟩ => show win0_3.index t (0 : Fin 2) * 200 + 1 * (x 0).val = win0_4.index t (0 : Fin 2) * 400 + 1 * (200 + 1 * (x 0).val); omega
    | ⟨1, _⟩ => show win0_3.index t (1 : Fin 2) * 10000 + 1 * k.val = k.val; omega
  · show (x 1).val = win0_4.index t (1 : Fin 2) * 128 + 1 * (0 + 1 * (x 1).val); omega

/-- The two stores cover the 400 rows of the block. -/
theorem pieces_cover (c : Dev nD) (t : Fin cfg0.N) (y : S400x128.Idx) : ∃ p ∈ outPieces m c t, y ∈ p.1.set := by
  have hy0 : (y 0).val < 400 := (y 0).isLt
  have hy1 : (y 1).val < 128 := (y 1).isLt
  by_cases h : (y 0).val < 200
  · refine ⟨_, List.mem_cons_of_mem _ (List.mem_singleton_self _), ?_⟩
    rw [Rect.mem_set_unit]
    intro a
    match a with
    | ⟨0, _⟩ => show 0 ≤ (y 0).val ∧ (y 0).val < 0 + 200; omega
    | ⟨1, _⟩ => show 0 ≤ (y 1).val ∧ (y 1).val < 0 + 128; omega
  · refine ⟨_, List.mem_cons_self, ?_⟩
    rw [Rect.mem_set_unit]
    intro a
    match a with
    | ⟨0, _⟩ => show 200 ≤ (y 0).val ∧ (y 0).val < 200 + 200; omega
    | ⟨1, _⟩ => show 0 ≤ (y 1).val ∧ (y 1).val < 0 + 128; omega

/-! ## From blocks to the array -/

/-- WHAT POINT `t` WRITES BACK is block `t` of `conv` of the argument arrays. -/
theorem flushed_eq (c : Dev nD) (t : Fin cfg0.N) :
    (dats m 0 c).flushed 4 t = ((cfg0.win 4).blk t).view.read (Elt Ideal) (conv (argX m c) (argA m c) (argW m c)) := by
  show (cfg0.win 4).cut (grid0.coords t) ((dats m 0 c).after 4 t) = _
  rw [after4, outAt_eq]
  funext y
  show View.canon (outPieces m c t) y = conv (argX m c) (argA m c) (argW m c) (((cfg0.win 4).blk t).view.emb y)
  refine View.canon_apply_of_pieces (fun y => conv (argX m c) (argA m c) (argW m c) (((cfg0.win 4).blk t).view.emb y))
    (outPieces m c t) ?_ y (pieces_cover m c t y)
  intro p hp x
  unfold outPieces at hp
  rcases List.mem_cons.mp hp with rfl | hp
  · exact piece_hi m c t x
  · obtain rfl := List.mem_singleton.mp hp
    exact piece_lo m c t x

/-- An index of the array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every row of the array is in the block of the point `row / 400`, which writes it back. -/
theorem array_cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  have hlt : (i 0).val / 400 < cfg0.N := by rw [hN]; omega
  obtain ⟨-, -, -, -, -, -, -, -, e40, e41⟩ := idx_facts ⟨(i 0).val / 400, hlt⟩
  refine ⟨⟨(i 0).val / 400, hlt⟩, flush0_4 _, ?_⟩
  rw [mem_blk]
  intro a
  match a with
  | ⟨0, _⟩ =>
    show win0_4.index ⟨(i 0).val / 400, hlt⟩ (0 : Fin 2) * 400 ≤ (i 0).val ∧ (i 0).val < win0_4.index ⟨(i 0).val / 400, hlt⟩ (0 : Fin 2) * 400 + 400
    rw [e40]; show (i 0).val / 400 * 400 ≤ (i 0).val ∧ (i 0).val < (i 0).val / 400 * 400 + 400; omega
  | ⟨1, _⟩ =>
    show win0_4.index ⟨(i 0).val / 400, hlt⟩ (1 : Fin 2) * 128 ≤ (i 1).val ∧ (i 1).val < win0_4.index ⟨(i 0).val / 400, hlt⟩ (1 : Fin 2) * 128 + 128
    rw [e41]; omega

/-- THE ARRAY after the run. -/
theorem final (c : Dev nD) : (dats m 0 c).arrAt 4 cfg0.N = conv (argX m c) (argA m c) (argW m c) :=
  (dats m 0 c).arrAt_eq_of_cover 4 (conv (argX m c) (argA m c) (argW m c)) (fun t _ => flushed_eq m c t) array_cover

/-! ## The run, read -/

/-- The frame run re-posted: the result array at `conv` of the arguments, the arguments unchanged. -/
theorem value_run : θ_run defs (onTc (τ := τ) (main (F := Ideal))) ⟨m, fun _ => 0, ρ⟩ fun r => ∀ c : Dev nD,
      r.2.mem ((c.tc : Thread nD τ).loc main_v0)
        = conv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 4).trans (final m c), ((h c).1 0).trans (kept m c 0 rfl _),
      ((h c).1 2).trans (kept m c 2 rfl _), ((h c).1 1).trans (kept m c 1 rfl _)⟩)
    (run_main m ρ)

end Cert.KernelIdeal.Hand

end
-- ==== Proof.ReferenceValue.lean ====
/-
  The reference computes the same function of the arguments.

  The reference is two host matrix products, x · w and then a · (x · w). Read at an index over the extended
  reals each is the plain sum over its contracted axis, so the result at (r, j) is
  Σ_k a(r, k) · Σ_l x(k, l) · w(l, j): the kernel's `conv`, term for term.
-/
import proofs.«175780_g6734508720141_cont_9to1c4b_724_7_alg».proof.Proof.Gen.ReferenceIdeal.Read
import proofs.«175780_g6734508720141_cont_9to1c4b_724_7_alg».proof.Proof.KernelIdealValue

noncomputable section

namespace Cert.ReferenceIdeal.RefValue

open Cert.ReferenceIdeal Cert.ReferenceIdeal.Gen Idealize.ShloMosaic Idealize.ShloMosaic.TcCoe Idealize.SL.Sem

/-- The reference's result term is `conv` of its arguments. -/
theorem ref_is_conv (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    Read.val_main_v1 (F := Ideal) x0 x1 x2 = Cert.KernelIdeal.Hand.conv x0 x1 x2 := by
  funext i
  rw [Read.val_main_v1_apply]
  unfold Cert.KernelIdeal.Hand.conv
  refine Finset.sum_congr rfl fun k _ => ?_
  rw [Read.val_main_v0_apply]
  have e1 : Read.lidx_main_v1 i k = ValueIdx.ix2 (⟨(i 0).val, (i 0).isLt⟩ : Fin 10000) k :=
    funext fun a => Fin.ext (by match a with | ⟨0, _⟩ => rfl | ⟨1, _⟩ => rfl)
  rw [e1]
  congr 1
  refine Finset.sum_congr rfl fun l _ => ?_
  have e2 : Read.lidx_main_v0 (Read.ridx_main_v1 i k) l = ValueIdx.ix2 k l :=
    funext fun a => Fin.ext (by match a with | ⟨0, _⟩ => rfl | ⟨1, _⟩ => rfl)
  have e3 : Read.ridx_main_v0 (Read.ridx_main_v1 i k) l = ValueIdx.ix2 l (⟨(i 1).val, (i 1).isLt⟩ : Fin 128) :=
    funext fun a => Fin.ext (by match a with | ⟨0, _⟩ => rfl | ⟨1, _⟩ => rfl)
  rw [e2, e3]

end Cert.ReferenceIdeal.RefValue

end
-- ==== Proof.lean ====
/-
  A graph convolution: out = a · (x · w), with x of 10000×128, a of 10000×10000 and w of 128×128.

  The kernel is one pipelined region over 25 grid points. At the first point it computes s = x · w into a
  scratch buffer that it keeps for the rest of the run; at every point it reads two blocks of 200 rows of a —
  the even and the odd half of the 400 rows the point is responsible for, through two windows on the ONE array
  a — and stores (block · s) into the two halves of a 400-row output block, which is written back. The reference
  is the two host products x · w and a · (x · w).

  Over the extended reals both programs compute, at every entry (r, j), the same sum of the same products,
  Σ_k a(r, k) · Σ_l x(k, l) · w(l, j); no algebraic law is needed, and the inputs' finiteness is never used.

  The three frames: each kernel program's run is the pipeline library's launch theorem for a region whose input
  windows share an array, the array's buffer dealt half to each of its two windows; the body's run at a grid point
  is one symbolic execution per control case (first point / later points), the scratch carried in the region's
  invariant. The reference's frame is its generated run with the result dropped. The idealization rewrote nothing,
  so the preservation conjunct is trivial.
-/
import proofs.«175780_g6734508720141_cont_9to1c4b_724_7_alg».proof.Proof.Gen.Kernel
import proofs.«175780_g6734508720141_cont_9to1c4b_724_7_alg».proof.Proof.Gen.KernelIdeal
import proofs.«175780_g6734508720141_cont_9to1c4b_724_7_alg».proof.Proof.Gen.ReferenceIdeal
import proofs.«175780_g6734508720141_cont_9to1c4b_724_7_alg».proof.Proof.Gen.ReferenceIdeal.Run
import proofs.«175780_g6734508720141_cont_9to1c4b_724_7_alg».proof.Proof.Gen.ReferenceIdeal.Read
import proofs.«175780_g6734508720141_cont_9to1c4b_724_7_alg».proof.Proof.Gen.Pre_finite_inputs
import proofs.«175780_g6734508720141_cont_9to1c4b_724_7_alg».proof.Defs
import proofs.«175780_g6734508720141_cont_9to1c4b_724_7_alg».proof.Proof.KernelRegion
import proofs.«175780_g6734508720141_cont_9to1c4b_724_7_alg».proof.Proof.KernelIdealRegion
import proofs.«175780_g6734508720141_cont_9to1c4b_724_7_alg».proof.Proof.KernelIdealValue
import proofs.«175780_g6734508720141_cont_9to1c4b_724_7_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, both programs end with the result array at a · (x · w). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_is_conv, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
